-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S4096x128 : Shape := ⟨2, ![4096, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S16384x128 .f32) (main_arg1 : FVec F S4096x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S16384x128 : Shape := ⟨2, ![16384, 128]⟩
abbrev S4096x128 : Shape := ⟨2, ![4096, 128]⟩
abbrev S_ : Shape := ⟨0, ![]⟩
abbrev S4096 : Shape := ⟨1, ![4096]⟩
abbrev S1x4096 : Shape := ⟨2, ![1, 4096]⟩
abbrev S16384x4096 : Shape := ⟨2, ![16384, 4096]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩

abbrev nBuf : Space → Nat
  | .hbm => 15
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S4096x128, .f32⟩
  | .hbm, ⟨2, _⟩ => ⟨S_, .f32⟩
  | .hbm, ⟨3, _⟩ => ⟨S16384x128, .f32⟩
  | .hbm, ⟨4, _⟩ => ⟨S16384x128, .f32⟩
  | .hbm, ⟨5, _⟩ => ⟨S16384x128, .bf16⟩
  | .hbm, ⟨6, _⟩ => ⟨S4096x128, .bf16⟩
  | .hbm, ⟨7, _⟩ => ⟨S4096x128, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S1x4096, .f32⟩
  | .hbm, ⟨14, _⟩ => ⟨S16384x4096, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S1x4096, .f32⟩
  | .local _ .vmem, ⟨4, _⟩ => ⟨S512x4096, .f32⟩
  | .local _ .vmem, ⟨5, _⟩ => ⟨S512x4096, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16384x128 : S_.BroadcastsInDim S16384x128 (![] : Fin 0 → Fin S16384x128.rank)
  bitsLt_bf16_f32 : FTy.bits .bf16 < FTy.bits .f32
  reducesTo_S4096x128_S4096_d1 : S4096x128.ReducesTo [1] S4096
  h_S_ : 0 < S_.numel
  bcast_S_S4096 : S_.BroadcastsInDim S4096 (![] : Fin 0 → Fin S4096.rank)
  shapeCasts_S4096_S1x4096 : S4096.ShapeCasts S1x4096
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  reduces_S512x4096_S512 : S512x4096.Reduces [1] S512
  shapeCasts_S512_S512x1 : S512.ShapeCasts S512x1
  broadcasts_S512x1_S512x4096 : S512x1.Broadcasts S512x4096
  inb_S512x4096_S512x4096_0_0 : ∀ a, (![0, 0] : Fin 2 → Nat) a + S512x4096.size a ≤ S512x4096.size a
  h_S512x4096 : 0 < S512x4096.numel
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S16384x128.size a
  hwx0_0 : ∀ i : grid0.Coords, EltTy.bits .bf16 = 32 ∨ (Rect.block (s := S16384x128) S512x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)

variable [Facts₀]

def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_v2) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x128 : Shape := ⟨2, ![16384, 128]⟩
abbrev S4096x128 : Shape := ⟨2, ![4096, 128]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S4096x128, .f32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x128, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384, .f32⟩
  | .hbm, ⟨23, _⟩ => ⟨S_, .f32⟩
  | .hbm, ⟨24, _⟩ => ⟨S16384, .f32⟩
  | .hbm, ⟨25, _⟩ => ⟨S16384, .f32⟩
  | .hbm, ⟨26, _⟩ => ⟨S16384x1, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S16384x4096, .f32⟩
  | .hbm, ⟨34, _⟩ => ⟨S16384x4096, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  reducesTo_S4096x128_S4096_d1 : S4096x128.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  reducesTo_S16384x4096_S16384_d1 : S16384x4096.ReducesTo [1] S16384
  bcast_S_S16384 : S_.BroadcastsInDim S16384 (![] : Fin 0 → Fin S16384.rank)
  dot_S16384x128_S4096x128_S16384x4096_1_1_0_0_n_n_wf : DotDims.WF S16384x128 S4096x128 S16384x4096 [1] [1] [0] [0] [] []

variable [Facts₀]

def dot_S16384x128_S4096x128_S16384x4096_1_1_0_0_n_n : DotDims S16384x128 S4096x128 S16384x4096 where
  lhsContracting := [1]
  rhsContracting := [1]
  lhsNonContracting := [0]
  rhsNonContracting := [0]
  lhsBatch := []
  rhsBatch := []
  wf := dot_S16384x128_S4096x128_S16384x4096_1_1_0_0_n_n_wf

class Facts : Prop extends Facts₀ where

variable [Facts]
-- ==== Proof.LibSoftmaxShift.lean ====
/-
  A softmax over a row of real numbers, read on the extended reals at the ideal values, does not change when one real
  number is added to every entry of the row.

  For a row a_0 … a_{n-1} of reals and a real s,
      exp (a_j + s) / ∑_c exp (a_c + s)  =  exp a_j / ∑_c exp a_c ,
  because exp (a + s) = exp a · exp s, the positive factor exp s leaves the sum as a common factor, and it cancels in
  the quotient. Every quantity is a real number: the sum of n ≥ 1 positive reals is positive, so the quotient is a
  quotient of reals and no corner of the extended reals' arithmetic is met.

  This is the law that joins a softmax computed with the row maximum subtracted first (s = −max) to one computed
  without it (s = 0), and a softmax of logits that carry a term constant along the row to one that drops it. Beside it:
  a finite sum of reals on the extended reals is the real sum; a quotient of reals by a nonzero real is the real
  quotient; and the greatest of finitely many reals, folded from −∞ over a nonempty index type, is a real number.
-/
import Idealize.ShloMosaic.PureOps.Ideal

noncomputable section

open scoped BigOperators

namespace Idealize.ShloMosaic.SoftmaxShift

open Idealize.ShloMosaic

/-- A finite sum of real numbers, taken on the extended reals, is the real sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The ideal quotient of a real by a nonzero real is the real quotient. -/
theorem div_coe_coe (p q : ℝ) (hq : q ≠ 0) : Ideal.div (p : EReal) (q : EReal) = ((p / q : ℝ) : EReal) := by
  rw [Ideal.div_coe hq, ← EReal.coe_mul, mul_one_div]

/-- The row's normalizer is a positive real: a sum of exponentials over a row that has an entry. -/
theorem sum_exp_pos {n : Nat} (a : Fin n → ℝ) (j : Fin n) : 0 < ∑ c : Fin n, Real.exp (a c) :=
  Finset.sum_pos (fun c _ => Real.exp_pos (a c)) ⟨j, Finset.mem_univ j⟩

/-- A softmax of a row of reals read at entry j is a real number: the quotient of exp a_j by the positive normalizer. -/
theorem softmax_real {n : Nat} (a : Fin n → ℝ) (j : Fin n) :
    Ideal.div (Ideal.exp ((a j : ℝ) : EReal)) (∑ c : Fin n, Ideal.exp ((a c : ℝ) : EReal))
      = ((Real.exp (a j) / ∑ c : Fin n, Real.exp (a c) : ℝ) : EReal) := by
  simp only [Ideal.exp_coe]
  rw [coe_sum, div_coe_coe _ _ (sum_exp_pos a j).ne']

/-- Adding one real number to every entry of a row of reals leaves its softmax unchanged. -/
theorem softmax_shift {n : Nat} (a : Fin n → ℝ) (s : ℝ) (j : Fin n) :
    Ideal.div (Ideal.exp ((a j + s : ℝ) : EReal)) (∑ c : Fin n, Ideal.exp ((a c + s : ℝ) : EReal))
      = Ideal.div (Ideal.exp ((a j : ℝ) : EReal)) (∑ c : Fin n, Ideal.exp ((a c : ℝ) : EReal)) := by
  rw [softmax_real (fun c => a c + s) j, softmax_real a j]
  congr 1
  simp only [Real.exp_add]
  rw [← Finset.sum_mul, mul_div_mul_right _ _ (Real.exp_pos s).ne']

/-- The greatest of finitely many reals, folded from −∞ over a nonempty index type, is a real number. -/
theorem fold_max_real {ι : Type*} [Fintype ι] [Nonempty ι] (f : ι → EReal) (hf : ∀ k, ∃ r : ℝ, f k = r) :
    ∃ r : ℝ, (Finset.univ : Finset ι).fold max ⊥ f = r := by
  have hlt : (Finset.univ : Finset ι).fold max ⊥ f < ⊤ := by
    rw [Finset.fold_max_lt]
    refine ⟨bot_lt_top, fun k _ => ?_⟩
    obtain ⟨r, hr⟩ := hf k
    rw [hr]; exact EReal.coe_lt_top r
  have hgt : ⊥ < (Finset.univ : Finset ι).fold max ⊥ f := by
    rw [Finset.lt_fold_max]
    obtain ⟨k⟩ := ‹Nonempty ι›
    obtain ⟨r, hr⟩ := hf k
    exact Or.inr ⟨k, Finset.mem_univ k, by rw [hr]; exact EReal.bot_lt_coe r⟩
  exact ⟨_, (EReal.coe_toReal hlt.ne hgt.ne').symm⟩

end Idealize.ShloMosaic.SoftmaxShift

end
-- ==== Proof.Spec.lean ====
/-
  The radial-basis softmax layer as one function of its two argument arrays, over the extended reals.

  x is a [16384, 128] array of points, W a [4096, 128] codebook. With γ the number the f32 pattern of 0.05 denotes,
  the layer returns, at (b, c), the softmax over the centres c of −γ · ‖x_b − w_c‖²:
      ‖x_b − w_c‖² = ‖x_b‖² + ‖w_c‖² − 2 · ⟨x_b, w_c⟩ .
  The term −γ · ‖x_b‖² does not depend on c, so along a row b it is one number added to every entry, and a softmax does
  not see it. What is left is the LOGIT
      logit (b, c) = ⟨(2γ) · x_b, w_c⟩ − γ · ‖w_c‖² ,
  and the result function is  G (b, c) = exp (logit (b, c)) / ∑_c' exp (logit (b, c')) .

  Two spellings of the scale meet here. One side multiplies x by the number the f32 pattern of 0.1 denotes; the other
  multiplies by 2 and by the f32 pattern of 0.05. Doubling a binary float only raises its exponent, so the two
  patterns have the same significand and the first number is exactly twice the second: 13421773 / 2^27 and
  13421773 / 2^28 (patterns_double). No rounding is involved and neither pattern is read as the decimal it came from.

  Stated here, over arrays of REAL entries: the logit and the scaled squared distance are real numbers
  (logit_coe, negDist_coe), and the scaled squared distance is the logit plus the row's own term (negDistR_eq).
-/
import Idealize.ShloMosaic.PureOps.Ideal
import Idealize.ShloMosaic.Lib.ValueIdx
import proofs.«168091_j60361470378557_2_alg».proof.Proof.LibSoftmaxShift

noncomputable section

open scoped BigOperators

namespace Cert.RbfSoftmax

open Idealize.ShloMosaic Idealize.ShloMosaic.ValueIdx Idealize.ShloMosaic.SoftmaxShift

/-- The points, the codebook and the result as index types of literal extents. -/
abbrev SX : Shape := ⟨2, ![16384, 128]⟩
abbrev SW : Shape := ⟨2, ![4096, 128]⟩
abbrev SO : Shape := ⟨2, ![16384, 4096]⟩

/-! ## The three float patterns -/

/-- The pattern of 0.1 (it multiplies x): the number 13421773 / 2^27. -/
abbrev scale : EReal := Ideal.ofBits .f32 0x3DCCCCCD#32
/-- The pattern of −0.05 (it multiplies a squared norm): the number −13421773 / 2^28. -/
abbrev negGamma : EReal := Ideal.ofBits .f32 0xBD4CCCCD#32
/-- The pattern of 2.0. -/
abbrev twoE : EReal := Ideal.ofBits .f32 0x40000000#32

/-- The same three as real numbers. -/
abbrev scaleR : ℝ := 13421773 / 134217728
abbrev negGammaR : ℝ := -(13421773 / 268435456)

theorem scale_val : scale = ((scaleR : ℝ) : EReal) := by
  simp [Ideal.ofBits, Ideal.ieee, -EReal.coe_mul]; norm_num

theorem negGamma_val : negGamma = ((negGammaR : ℝ) : EReal) := by
  simp [Ideal.ofBits, Ideal.ieee, -EReal.coe_mul]; norm_num

theorem twoE_val : twoE = ((2 : ℝ) : EReal) := by
  simp [Ideal.ofBits, Ideal.ieee, -EReal.coe_mul]; norm_num

/-- The pattern of −∞. -/
theorem negInf_val : Ideal.ofBits .f32 0xFF800000#32 = (⊥ : EReal) := by
  simp [Ideal.ofBits, Ideal.ieee]

/-- The scale on x is exactly twice γ: the two patterns share their significand and differ by one in the exponent. -/
theorem patterns_double : scaleR = -(2 * negGammaR) := by norm_num

/-! ## The logit and the result -/

/-- The logit at (b, c): the inner product of the scaled point with the centre, plus −γ times the centre's squared norm. -/
def logit (x : SX.Idx → EReal) (W : SW.Idx → EReal) (b : Fin 16384) (c : Fin 4096) : EReal :=
  (∑ k : Fin 128, (x (ix2 b k) * scale) * W (ix2 c k)) + negGamma * (∑ k : Fin 128, W (ix2 c k) * W (ix2 c k))

/-- The result at (b, c): the softmax of row b's logits, read at c. No maximum is subtracted. -/
def softmaxAt (x : SX.Idx → EReal) (W : SW.Idx → EReal) (b : Fin 16384) (c : Fin 4096) : EReal :=
  Ideal.div (Ideal.exp (logit x W b c)) (∑ c' : Fin 4096, Ideal.exp (logit x W b c'))

/-- The result array as one function of the two argument arrays. -/
def G (x : SX.Idx → EReal) (W : SW.Idx → EReal) : SO.Idx → EReal := fun i => softmaxAt x W (i 0) (i 1)

theorem G_ix2 (x : SX.Idx → EReal) (W : SW.Idx → EReal) (b : Fin 16384) (c : Fin 4096) :
    G x W (ix2 b c) = softmaxAt x W b c := rfl

/-- −γ times the squared distance from point b to centre c, in the expanded form ‖x‖² + ‖w‖² − 2⟨x, w⟩. -/
def negDist (x : SX.Idx → EReal) (W : SW.Idx → EReal) (b : Fin 16384) (c : Fin 4096) : EReal :=
  negGamma * (((∑ k : Fin 128, x (ix2 b k) * x (ix2 b k)) + (∑ k : Fin 128, W (ix2 c k) * W (ix2 c k)))
    - twoE * (∑ k : Fin 128, x (ix2 b k) * W (ix2 c k)))

/-! ## Over arrays of real entries -/

/-- The logit of real arrays, as a real number. -/
def logitR (xr : SX.Idx → ℝ) (wr : SW.Idx → ℝ) (b : Fin 16384) (c : Fin 4096) : ℝ :=
  (∑ k : Fin 128, (xr (ix2 b k) * scaleR) * wr (ix2 c k)) + negGammaR * (∑ k : Fin 128, wr (ix2 c k) * wr (ix2 c k))

/-- −γ times the squared distance of real arrays, as a real number. -/
def negDistR (xr : SX.Idx → ℝ) (wr : SW.Idx → ℝ) (b : Fin 16384) (c : Fin 4096) : ℝ :=
  negGammaR * (((∑ k : Fin 128, xr (ix2 b k) * xr (ix2 b k)) + (∑ k : Fin 128, wr (ix2 c k) * wr (ix2 c k)))
    - 2 * (∑ k : Fin 128, xr (ix2 b k) * wr (ix2 c k)))

/-- Row b's own term: −γ times the point's squared norm. It is the same for every centre. -/
def rowTermR (xr : SX.Idx → ℝ) (b : Fin 16384) : ℝ := negGammaR * (∑ k : Fin 128, xr (ix2 b k) * xr (ix2 b k))

/-- On arrays of reals the logit is the real logit. -/
theorem logit_coe (xr : SX.Idx → ℝ) (wr : SW.Idx → ℝ) (b : Fin 16384) (c : Fin 4096) :
    logit (fun i => ((xr i : ℝ) : EReal)) (fun i => ((wr i : ℝ) : EReal)) b c = ((logitR xr wr b c : ℝ) : EReal) := by
  unfold logit logitR
  simp only [scale_val, negGamma_val, ← EReal.coe_mul, coe_sum, ← EReal.coe_add]

/-- On arrays of reals the scaled squared distance is the real one. -/
theorem negDist_coe (xr : SX.Idx → ℝ) (wr : SW.Idx → ℝ) (b : Fin 16384) (c : Fin 4096) :
    negDist (fun i => ((xr i : ℝ) : EReal)) (fun i => ((wr i : ℝ) : EReal)) b c = ((negDistR xr wr b c : ℝ) : EReal) := by
  unfold negDist negDistR
  simp only [twoE_val, negGamma_val, ← EReal.coe_mul, coe_sum, ← EReal.coe_add, ← EReal.coe_sub]

/-- −γ‖x_b − w_c‖² is the logit plus the row's own term: expand the square, and use that the scale on x is 2γ. -/
theorem negDistR_eq (xr : SX.Idx → ℝ) (wr : SW.Idx → ℝ) (b : Fin 16384) (c : Fin 4096) :
    negDistR xr wr b c = logitR xr wr b c + rowTermR xr b := by
  unfold negDistR logitR rowTermR
  have hs : ∑ k : Fin 128, (xr (ix2 b k) * scaleR) * wr (ix2 c k) = scaleR * ∑ k : Fin 128, xr (ix2 b k) * wr (ix2 c k) := by
    rw [Finset.mul_sum]
    exact Finset.sum_congr rfl fun k _ => by ring
  rw [hs, patterns_double]
  ring

/-- The softmax of real arrays' logits is what the result function returns. -/
theorem softmaxAt_coe (xr : SX.Idx → ℝ) (wr : SW.Idx → ℝ) (b : Fin 16384) (c : Fin 4096) :
    softmaxAt (fun i => ((xr i : ℝ) : EReal)) (fun i => ((wr i : ℝ) : EReal)) b c
      = Ideal.div (Ideal.exp ((logitR xr wr b c : ℝ) : EReal)) (∑ c' : Fin 4096, Ideal.exp ((logitR xr wr b c' : ℝ) : EReal)) := by
  unfold softmaxAt
  simp only [logit_coe]

end Cert.RbfSoftmax

end
-- ==== Proof.LibTransposedRhsMatmul.lean ====
/-
  A matrix product whose right operand is contracted on its LAST axis, read at an index at the ideal values.

  For an M × K left operand and an N × K right operand (the right one is the transpose of the matrix a textbook
  product would take), the product into the zero accumulator has, at (i, j), the entry
      ∑_k  lhs (i, k) · rhs (j, k) :
  row i of the left operand against ROW j of the right one. The dimension numbers are the library's
  DotDims.transposedRhs M K N (contract axis 1 of both operands; rows of the left operand, then rows of the right one,
  index the result); a printed record with those six lists equals it by rfl.

  At a result index (i, j) and a contraction position k the left operand is read at (i, k) and the right one at
  (j, k): the free axis of each operand takes its coordinate from the result index, the contracted axis takes the one
  coordinate of the contraction position. The sum over contraction positions is then a sum over k : Fin K.

  Stated for any M, K, N and any operand formats; a change of float format is the identity at the ideal values, so
  operands rounded to a shorter format before the product read the same.
-/
import Idealize.ShloMosaic.PureOps.Ideal.Laws
import Idealize.ShloMosaic.Lib.ValueIdx

noncomputable section

open scoped BigOperators

namespace Idealize.ShloMosaic.TransposedRhsMatmul

open Idealize.ShloMosaic Idealize.ShloMosaic.ValueIdx

variable {M K N : Nat}

/-- The left operand's row coordinate is the result's row coordinate. -/
theorem lhsIdx_free (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction position. -/
theorem lhsIdx_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column coordinate. -/
theorem rhsIdx_free (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction position too. -/
theorem rhsIdx_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The product into the zero accumulator at (i, j): row i of the left operand against row j of the right one. -/
theorem transposedRhsMatmul_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhsIdx_free _ _
      | ⟨1, _⟩ => exact (lhsIdx_contr _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhsIdx_free _ _
      | ⟨1, _⟩ => exact (rhsIdx_contr _ _).trans hk)
  rw [el, er]

end Idealize.ShloMosaic.TransposedRhsMatmul

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.Payload.lean ====
/-
  What the kernel body computes from one grid point's blocks, read at an index, at the ideal values.

  The body holds a [512, 128] block X of scaled points, the whole [4096, 128] codebook Wb and the [1, 4096] row R of
  the centres' terms. It forms the [512, 4096] block of logits
      L (p, q) = ∑_k X (p, k) · Wb (q, k)  +  R (0, q)
  (row p of the points against ROW q of the codebook, plus the centre's term broadcast down the rows), exponentiates
  it, sums each row over its 4096 lanes, and divides each entry by its row's sum:
      out (p, q) = exp (L (p, q)) / ∑_q' exp (L (p, q')) .
  No row maximum is subtracted.

  The body is cut in two: the logits of a block (blockLogits) and the normalisation of a block of logits (normalize);
  the stored value is their composite by definition (pay_eq), and each half is read at (p, q).
-/
import proofs.«168091_j60361470378557_2_alg».proof.Proof.Gen.KernelIdeal.Skeleton
import proofs.«168091_j60361470378557_2_alg».proof.Proof.LibTransposedRhsMatmul
import proofs.«168091_j60361470378557_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RbfSoftmax.Block

open Idealize.ShloMosaic Idealize.ShloMosaic.ValueIdx Cert.KernelIdeal Cert.KernelIdeal.Gen

/-- The block of logits: the product of the points' block with the codebook, contracted on both second axes, plus the
    centres' row broadcast over the 512 rows. -/
def blockLogits (x0 : FVec Ideal S512x128 .bf16) (x1 : FVec Ideal S4096x128 .bf16) (x2 : FVec Ideal S1x4096 .f32) :
    FVec Ideal S512x4096 .f32 :=
  addf (matmul dot_S512x128_S4096x128_S512x4096_1_1_0_0_n_n none (shapeCast S512x128 x0 shapeCasts_S512x128_S512x128)
      (shapeCast S4096x128 x1 shapeCasts_S4096x128_S4096x128) (constant S512x4096 .f32 0x00000000#32))
    (broadcastTo S512x4096 (shapeCast S1x4096 x2 shapeCasts_S1x4096_S1x4096) broadcasts_S1x4096_S512x4096)

/-- A block of logits normalised along its rows: exp, the row sums kept as a column, the column broadcast back, the
    quotient. -/
def normalize (v : FVec Ideal S512x4096 .f32) : FVec Ideal S512x4096 .f32 :=
  divf (exp v) (broadcastTo S512x4096
    (shapeCast S512x1 (multiReduction .add [1] S512 (exp v) 0x00000000#32 reduces_S512x4096_S512 (.inl rfl) rfl) shapeCasts_S512_S512x1)
    broadcasts_S512x1_S512x4096)

/-- The value the body stores is the normalised block of logits. -/
theorem pay_eq (x0 : FVec Ideal S512x128 .bf16) (x1 : FVec Ideal S4096x128 .bf16) (x2 : FVec Ideal S1x4096 .f32) :
    k0_pay1 (F := Ideal) x0 x1 x2 = normalize (blockLogits x0 x1 x2) := rfl

/-- The logit of a block at (p, q). -/
def logitAt (x0 : FVec Ideal S512x128 .bf16) (x1 : FVec Ideal S4096x128 .bf16) (x2 : FVec Ideal S1x4096 .f32)
    (p : Fin 512) (q : Fin 4096) : EReal :=
  (∑ k : Fin 128, x0 (ix2 p k) * x1 (ix2 q k)) + x2 (ix2 (0 : Fin 1) q)

/-- The block of logits at (p, q): row p of the points against row q of the codebook, plus the centre's term. -/
theorem blockLogits_apply (x0 : FVec Ideal S512x128 .bf16) (x1 : FVec Ideal S4096x128 .bf16) (x2 : FVec Ideal S1x4096 .f32)
    (p : Fin 512) (q : Fin 4096) : blockLogits x0 x1 x2 (ix2 p q) = logitAt x0 x1 x2 p q := by
  unfold blockLogits logitAt
  rw [shapeCast_self, shapeCast_self, shapeCast_self]
  show FloatOps.matmul dot_S512x128_S4096x128_S512x4096_1_1_0_0_n_n none x0 x1 (constant S512x4096 .f32 0x00000000#32) (ix2 p q)
      + broadcastTo S512x4096 x2 broadcasts_S1x4096_S512x4096 (ix2 p q) = _
  refine congrArg₂ (· + ·) ?_ ?_
  · exact TransposedRhsMatmul.transposedRhsMatmul_apply (M := 512) (K := 128) (N := 4096) none x0 x1 p q
  · exact broadcastTo_1b_ab_apply x2 broadcasts_S1x4096_S512x4096 p q

/-- A normalised block at (p, q): the entry's exponential over the sum of its row's exponentials. -/
theorem normalize_apply (v : FVec Ideal S512x4096 .f32) (p : Fin 512) (q : Fin 4096) :
    normalize v (ix2 p q) = Ideal.div (Ideal.exp (v (ix2 p q))) (∑ q' : Fin 4096, Ideal.exp (v (ix2 p q'))) := by
  unfold normalize
  show Ideal.div (Ideal.exp (v (ix2 p q))) (broadcastTo S512x4096
    (shapeCast S512x1 (multiReduction .add [1] S512 (exp v) 0x00000000#32 reduces_S512x4096_S512 (.inl rfl) rfl) shapeCasts_S512_S512x1)
    broadcasts_S512x1_S512x4096 (ix2 p q)) = _
  refine congrArg (Ideal.div (Ideal.exp (v (ix2 p q)))) ?_
  refine (Keepdims.bcast_col_apply _ broadcasts_S512x1_S512x4096 p q).trans ?_
  refine (Keepdims.cast_col_apply _ shapeCasts_S512_S512x1 p 0).trans ?_
  exact Keepdims.rowSum2_apply (exp v) 0x00000000#32 reduces_S512x4096_S512 (.inl rfl) rfl p

/-- What the body stores at (p, q): the softmax of row p of the block's logits, read at q. -/
theorem pay_apply (x0 : FVec Ideal S512x128 .bf16) (x1 : FVec Ideal S4096x128 .bf16) (x2 : FVec Ideal S1x4096 .f32)
    (p : Fin 512) (q : Fin 4096) :
    k0_pay1 (F := Ideal) x0 x1 x2 (ix2 p q)
      = Ideal.div (Ideal.exp (logitAt x0 x1 x2 p q)) (∑ q' : Fin 4096, Ideal.exp (logitAt x0 x1 x2 p q')) := by
  rw [pay_eq, normalize_apply]
  simp only [blockLogits_apply]

end Cert.RbfSoftmax.Block

end
-- ==== Proof.HostPrefix.lean ====
/-
  The three arrays the region is launched on, as functions of the two arguments, read at an index.

  Before the region the program prepares, from x and W:
    * the points scaled: x (i) times the pattern of 0.1, then rounded to a shorter format (the identity at the ideal values);
    * the codebook rounded to the shorter format: W itself at the ideal values;
    * a [1, 4096] row of the centres' terms: entry (0, q) is the pattern of −0.05 times ∑_k W (q, k)², the sum taken
      from the zero pattern, the [4096] vector of them viewed as one row.
  Each is read off the list of operations before the region and then at an index.
-/
import proofs.«168091_j60361470378557_2_alg».proof.Proof.Gen.KernelIdeal.Frame
import proofs.«168091_j60361470378557_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RbfSoftmax.Prefix

open Idealize.ShloMosaic Idealize.ShloMosaic.TcCoe Idealize.SL.Sem Idealize.ShloMosaic.StableHlo Idealize.ShloMosaic.ValueIdx
open Cert.KernelIdeal Cert.KernelIdeal.Gen Cert.RbfSoftmax

variable (m : (ℓ : Loc nD τ sig) → Buf (Elt Ideal) ℓ)

/-- The two arguments on core c, as arrays of extended reals. -/
abbrev argX (c : Dev nD) : S16384x128.Idx → EReal := m ((c : Thread nD τ).loc main_arg0)
abbrev argW (c : Dev nD) : S4096x128.Idx → EReal := m ((c : Thread nD τ).loc main_arg1)

/-- The three arrays the windows stage, as the region finds them on core c. -/
abbrev stagedX (c : Dev nD) : S16384x128.Idx → EReal := V m c main_v2
abbrev stagedW (c : Dev nD) : S4096x128.Idx → EReal := V m c main_v3
abbrev stagedR (c : Dev nD) : S1x4096.Idx → EReal := V m c main_v8

/-- The host's sum of squares along a codebook row, from the zero pattern: ∑_k Wm (q, k)². -/
theorem rowSq_apply (Wm : FVec Ideal S4096x128 .f32) (q : Fin 4096) :
    Host.reduceAdd (F := Ideal) (mulf Wm Wm) (constant (F := Ideal) S_ .f32 0x00000000#32) reducesTo_S4096x128_S4096_d1 h_S_ (ix1 q)
      = ∑ k : Fin 128, Wm (ix2 q k) * Wm (ix2 q k) := by
  generalize hy : mulf Wm Wm = y0
  simp only [Host.reduceAdd, Ideal.hostReduceAdd_def]
  rw [Ideal.hostReduceAdd_single reducesTo_S4096x128_S4096_d1 (by decide)]
  show Ideal.ofBits .f32 0x00000000#32 + _ = _
  rw [Ideal.ofBits_zero_f32, zero_add]
  refine Finset.sum_congr rfl fun k _ => ?_
  subst hy
  exact congrArg (fun j => Wm j * Wm j) (funext fun a => Fin.ext (by match a with | ⟨0, _⟩ => rfl | ⟨1, _⟩ => rfl))

/-- The staged points as the operations before the region compute them. -/
theorem stagedX_eq (c : Dev nD) : stagedX m c
    = truncf (F := Ideal) .bf16 (mulf (argX m c) (broadcastInDim S16384x128 ![] bcast_S_S16384x128 (constant (F := Ideal) S_ .f32 0x3DCCCCCD#32)))
        bitsLt_bf16_f32 := by
  dsimp only [stagedX, argX, Gen.V, Gen.hostOps0]; after_results <;> rfl

/-- The staged codebook as the operations before the region compute it. -/
theorem stagedW_eq (c : Dev nD) : stagedW m c = truncf (F := Ideal) .bf16 (argW m c) bitsLt_bf16_f32 := by
  dsimp only [stagedW, argW, Gen.V, Gen.hostOps0]; after_results <;> rfl

/-- The staged row of centres' terms as the operations before the region compute it. -/
theorem stagedR_eq (c : Dev nD) : stagedR m c
    = shapeCast S1x4096 (mulf (broadcastInDim S4096 ![] bcast_S_S4096 (constant (F := Ideal) S_ .f32 0xBD4CCCCD#32))
        (Host.reduceAdd (F := Ideal) (mulf (argW m c) (argW m c)) (constant (F := Ideal) S_ .f32 0x00000000#32)
          reducesTo_S4096x128_S4096_d1 h_S_)) shapeCasts_S4096_S1x4096 := by
  dsimp only [stagedR, argW, Gen.V, Gen.hostOps0]; after_results <;> rfl

/-- The scaled points the first window stages: x (i) times the pattern of 0.1. -/
theorem scaled_apply (c : Dev nD) (i : S16384x128.Idx) : stagedX m c i = argX m c i * scale := by
  rw [stagedX_eq]
  show argX m c i * broadcastInDim S16384x128 ![] bcast_S_S16384x128 (constant (F := Ideal) S_ .f32 0x3DCCCCCD#32) i = _
  rw [broadcastInDim_apply _ bcast_S_S16384x128 _ i ix0 (fun a => a.elim0)]
  rfl

/-- The codebook the second window stages: W itself. -/
theorem codebook_apply (c : Dev nD) (i : S4096x128.Idx) : stagedW m c i = argW m c i := by
  rw [stagedW_eq]
  rfl

/-- The row of centres' terms the third window stages: at (0, q), the pattern of −0.05 times ∑_k W (q, k)². -/
theorem centreTerm_apply (c : Dev nD) (q : Fin 4096) :
    stagedR m c (ix2 (0 : Fin 1) q) = negGamma * ∑ k : Fin 128, argW m c (ix2 q k) * argW m c (ix2 q k) := by
  rw [stagedR_eq, shapeCast_a_1a_apply]
  show broadcastInDim S4096 ![] bcast_S_S4096 (constant (F := Ideal) S_ .f32 0xBD4CCCCD#32) (ix1 q)
      * Host.reduceAdd (F := Ideal) (mulf (argW m c) (argW m c)) (constant (F := Ideal) S_ .f32 0x00000000#32)
          reducesTo_S4096x128_S4096_d1 h_S_ (ix1 q) = _
  rw [broadcastInDim_apply _ bcast_S_S4096 _ (ix1 q) ix0 (fun a => a.elim0), rowSq_apply]
  rfl

end Cert.RbfSoftmax.Prefix

end
-- ==== Proof.KernelValue.lean ====
/-
  The kernel's result array is the result function G of the two arguments.

  The grid has 32 points; point t handles rows 512 t … 512 t + 511. At point t the body is given
    * rows 512 t … 512 t + 511 of the scaled points  (entry (p, k) is x (512 t + p, k) times the pattern of 0.1),
    * the whole codebook                              (entry (q, k) is W (q, k)),
    * the whole row of centres' terms                 (entry (0, q) is the pattern of −0.05 times ‖w_q‖²),
  and writes back rows 512 t … 512 t + 511 of the result. The logit the body forms at (p, q) is therefore the logit of
  point 512 t + p against centre q, and the softmax it takes runs over all 4096 centres: the block written back is
  block t of G (point_eq, flushed_eq). Row r of the result lies in the block of point r / 512, so the 32 blocks cover
  the array (cover), and the array ends holding G (final, run).
-/
import proofs.«168091_j60361470378557_2_alg».proof.Proof.Gen.KernelIdeal.Frame
import proofs.«168091_j60361470378557_2_alg».proof.Proof.Gen.KernelIdeal.Value
import proofs.«168091_j60361470378557_2_alg».proof.Proof.Spec
import proofs.«168091_j60361470378557_2_alg».proof.Proof.Payload
import proofs.«168091_j60361470378557_2_alg».proof.Proof.HostPrefix
import Idealize.ShloMosaic.Lib.Pipeline.Value
import Idealize.ShloMosaic.Lib.ValueIdx
import Idealize.ShloMosaic.Lib.Tactic

noncomputable section

open scoped BigOperators

namespace Cert.RbfSoftmax.Kernel

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.RbfSoftmax

variable (m : (ℓ : Loc nD τ sig) → Buf (Elt Ideal) ℓ) (ρ : Dev nD → PrngReg)

theorem hz : (![0, 0] : Fin 2 → Nat) = fun _ => 0 := funext fun a => by fin_cases a <;> rfl

/-- The block index of each window at each of the 32 points: the points' window and the result's window are at row
    block t, the codebook's and the centre row's windows stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The three blocks the body is given at point t -/

/-- The points' block: entry (p, k) is x at row 512 t + p, column k, times the pattern of 0.1. -/
theorem points_block (c : Dev nD) (t : Fin cfg0.N) (p : Fin 512) (k : Fin 128) (i : SX.Idx)
    (h0 : (i 0).val = t.val * 512 + p.val) (h1 : (i 1).val = k.val) :
    (iblk m c 0 t : FVec Ideal S512x128 .bf16) (ix2 p k)
      = Prefix.argX m c i * scale := by
  obtain ⟨e0, e1, -⟩ := index_facts t
  unfold iblk
  rw [View.read_apply]
  show Prefix.stagedX m c _ = _
  refine (Prefix.scaled_apply m c _).trans ?_
  refine congrArg (fun j => Prefix.argX m c j * scale) ?_
  funext a; apply Fin.ext
  match a with
  | ⟨0, _⟩ => show win0_0.index t 0 * 512 + 1 * p.val = (i 0).val; rw [e0, h0]; omega
  | ⟨1, _⟩ => show win0_0.index t 1 * 128 + 1 * k.val = (i 1).val; rw [e1, h1]; omega

/-- The codebook's block is the whole codebook. -/
theorem codebook_block (c : Dev nD) (t : Fin cfg0.N) (q : Fin 4096) (k : Fin 128) :
    (iblk m c 1 t : FVec Ideal S4096x128 .bf16) (ix2 q k)
      = Prefix.argW m c (ix2 q k) := by
  obtain ⟨-, -, e0, e1, -⟩ := index_facts t
  unfold iblk
  rw [View.read_apply]
  show Prefix.stagedW m c _ = _
  refine (Prefix.codebook_apply m c _).trans ?_
  refine congrArg (Prefix.argW m c) ?_
  funext a; apply Fin.ext
  match a with
  | ⟨0, _⟩ => show win0_1.index t 0 * 4096 + 1 * q.val = q.val; rw [e0]; omega
  | ⟨1, _⟩ => show win0_1.index t 1 * 128 + 1 * k.val = k.val; rw [e1]; omega

/-- The centre row's block is the whole row: entry (0, q) is the pattern of −0.05 times ‖w_q‖². -/
theorem centre_block (c : Dev nD) (t : Fin cfg0.N) (q : Fin 4096) :
    (iblk m c 2 t : FVec Ideal S1x4096 .f32) (ix2 (0 : Fin 1) q)
      = negGamma * ∑ k : Fin 128, Prefix.argW m c (ix2 q k)
          * Prefix.argW m c (ix2 q k) := by
  obtain ⟨-, -, -, -, e0, e1, -⟩ := index_facts t
  unfold iblk
  rw [View.read_apply]
  show Prefix.stagedR m c _ = _
  refine Eq.trans (congrArg (Prefix.stagedR m c) ?_) (Prefix.centreTerm_apply m c q)
  funext a; apply Fin.ext
  match a with
  | ⟨0, _⟩ => show win0_2.index t 0 * 1 + 1 * 0 = 0; rw [e0]
  | ⟨1, _⟩ => show win0_2.index t 1 * 4096 + 1 * q.val = q.val; rw [e1]; omega

/-! ## One point -/

/-- From blocks that are rows 512 tt … of the scaled points, the codebook and the centres' row, the body's value at a
    block index j is G at the array index i with the same column and with row 512 tt + the block row. -/
theorem point_eq (A : FVec Ideal S512x128 .bf16) (B : FVec Ideal S4096x128 .bf16) (C : FVec Ideal S1x4096 .f32)
    (x : SX.Idx → EReal) (W : SW.Idx → EReal) (tt : Nat)
    (hA : ∀ (p : Fin 512) (k : Fin 128) (i : SX.Idx), (i 0).val = tt * 512 + p.val → (i 1).val = k.val → A (ix2 p k) = x i * scale)
    (hB : ∀ (q : Fin 4096) (k : Fin 128), B (ix2 q k) = W (ix2 q k))
    (hC : ∀ q : Fin 4096, C (ix2 (0 : Fin 1) q) = negGamma * ∑ k : Fin 128, W (ix2 q k) * W (ix2 q k))
    (j : S512x4096.Idx) (i : SO.Idx) (h0 : (i 0).val = tt * 512 + (j 0).val) (h1 : (i 1).val = (j 1).val) :
    k0_pay1 (F := Ideal) A B C j = G x W i := by
  obtain ⟨p, q, rfl⟩ : ∃ (p : Fin 512) (q : Fin 4096), j = ix2 p q := ⟨j 0, j 1, eq_ix2 j⟩
  obtain ⟨b, c, rfl⟩ : ∃ (b : Fin 16384) (c : Fin 4096), i = ix2 b c := ⟨i 0, i 1, eq_ix2 i⟩
  have hb : b.val = tt * 512 + p.val := h0
  obtain rfl : c = q := Fin.ext h1
  have hl : ∀ q' : Fin 4096, Block.logitAt A B C p q' = logit x W b q' := fun q' => by
    unfold Block.logitAt logit
    rw [hC q']
    refine congrArg (· + _) (Finset.sum_congr rfl fun k _ => ?_)
    rw [hA p k (ix2 b k) hb rfl, hB q' k]
  rw [Block.pay_apply, G_ix2]
  unfold softmaxAt
  simp only [hl]

/-! ## From the blocks to the array -/

/-- What point t writes back is block t of G of the two arguments. -/
theorem flushed_eq (c : Dev nD) (t : Fin cfg0.N) :
    (dats m 0 c).flushed 3 t = ((cfg0.win 3).blk t).view.read (Elt Ideal)
      (G (Prefix.argX m c) (Prefix.argW m c)) := by
  obtain ⟨-, -, -, -, -, -, e0, e1⟩ := index_facts t
  rw [flushed3]
  unfold out0_3
  rw [View.canon_unit_zero hz]
  simp only [View.ld_unit_zero (S := S512x128) hz, View.ld_unit_zero (S := S4096x128) hz, View.ld_unit_zero (S := S1x4096) hz]
  funext y
  rw [View.read_apply]
  show k0_pay1 (F := Ideal) (iblk m c 0 t) (iblk m c 1 t) (iblk m c 2 t) ((cfg0.win 3).xinj (grid0.coords t) y) = _
  refine point_eq (iblk m c 0 t) (iblk m c 1 t) (iblk m c 2 t) (Prefix.argX m c) (Prefix.argW m c)
    t.val (points_block m c t) (codebook_block m c t) (centre_block m c t) _ _ ?_ ?_
  · show win0_3.index t 0 * 512 + 1 * (y 0).val = t.val * 512 + (y 0).val
    rw [e0]; omega
  · show win0_3.index t 1 * 4096 + 1 * (y 1).val = (y 1).val
    rw [e1]; omega

/-- An index of the result lies in point t's block iff each coordinate lies in the block's range on its axis. -/
theorem mem_blk (t : Fin cfg0.N) (i : S16384x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v9).slice (win0_3.rect t)).set ↔ _
  rw [View.set_slice_whole, Rect.mem_set_unit]
  exact Iff.rfl

/-- Row r of the result is in the block of point r / 512: the 32 blocks cover the array. -/
theorem cover (i : S16384x4096.Idx) :
    ∃ t : Fin cfg0.N, (cfg0.win 3).flush t = true ∧ i ∈ ((cfg0.win 3).blk t).view.set := by
  have hN : cfg0.N = 32 := N_0
  have hi0 : (i 0).val < 16384 := (i 0).isLt
  have hi1 : (i 1).val < 4096 := (i 1).isLt
  have ht : (i 0).val / 512 < cfg0.N := by rw [hN]; omega
  obtain ⟨-, -, -, -, -, -, e0, e1⟩ := index_facts ⟨(i 0).val / 512, ht⟩
  refine ⟨⟨(i 0).val / 512, ht⟩, flush0_3 _, ?_⟩
  rw [mem_blk]
  intro a
  match a with
  | ⟨0, _⟩ =>
    show win0_3.index ⟨(i 0).val / 512, ht⟩ 0 * 512 ≤ (i 0).val ∧ (i 0).val < win0_3.index ⟨(i 0).val / 512, ht⟩ 0 * 512 + 512
    rw [e0]; show (i 0).val / 512 * 512 ≤ (i 0).val ∧ (i 0).val < (i 0).val / 512 * 512 + 512; omega
  | ⟨1, _⟩ =>
    show win0_3.index ⟨(i 0).val / 512, ht⟩ 1 * 4096 ≤ (i 1).val ∧ (i 1).val < win0_3.index ⟨(i 0).val / 512, ht⟩ 1 * 4096 + 4096
    rw [e1]; omega

/-- The result array after the run is G of the two arguments. -/
theorem final (c : Dev nD) : (dats m 0 c).arrAt 3 cfg0.N
    = G (Prefix.argX m c) (Prefix.argW m c) :=
  (dats m 0 c).arrAt_eq_of_cover 3 (G (Prefix.argX m c) (Prefix.argW m c))
    (fun t _ => flushed_eq m c t) cover

/-- The kernel's run: the result array ends at G of the arguments, the arguments unchanged. -/
theorem run : θ_run defs (onTc (τ := τ) (main (F := Ideal))) ⟨m, fun _ => 0, ρ⟩ fun r => ∀ c : Dev nD,
      r.2.mem ((c : Thread nD τ).loc main_v9) = G (Prefix.argX m c) (Prefix.argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.RbfSoftmax.Kernel

end
-- ==== Proof.Reference.lean ====
/-
  The reference's result, read at an index, is the result function G — for arrays of real entries.

  The reference forms, for every point b and centre c, the number −γ · (‖x_b‖² + ‖w_c‖² − 2⟨x_b, w_c⟩) (scaledDist_apply),
  takes each row's maximum M_b over the centres, starting from −∞, and returns
      exp (d (b, c) − M_b) / ∑_c' exp (d (b, c') − M_b)                                       (out_apply).
  When every entry of x and W is a real number, each d (b, c) is a real number — the logit plus the row's own term
  −γ‖x_b‖² —, the row maximum of 4096 reals from −∞ is a real number (rowMax_real), and so every entry of row b carries
  the same real shift −γ‖x_b‖² − M_b on top of its logit. A softmax does not see such a shift: the reference's result
  is exp (logit (b, c)) / ∑_c' exp (logit (b, c')), which is G (ref_eq_G).

  Finiteness is used: with an infinite entry the shift could be infinite and exp (d − M) would meet ∞ − ∞.
-/
import proofs.«168091_j60361470378557_2_alg».proof.Proof.Gen.ReferenceIdeal.Read
import proofs.«168091_j60361470378557_2_alg».proof.Proof.Spec
import Idealize.ShloMosaic.Lib.ValueIdx
import Idealize.ShloMosaic.PureOps.Ideal.Laws

noncomputable section

open scoped BigOperators

namespace Cert.RbfSoftmax.Ref

open Idealize.ShloMosaic Idealize.ShloMosaic.ValueIdx Idealize.ShloMosaic.SoftmaxShift
open Cert.ReferenceIdeal Cert.ReferenceIdeal.Gen Cert.ReferenceIdeal.Read Cert.RbfSoftmax

/-- The reference's scaled distances at (b, c): −γ · ((‖x_b‖² + ‖w_c‖²) − 2 · ⟨x_b, w_c⟩). -/
theorem scaledDist_apply (x : SX.Idx → EReal) (W : SW.Idx → EReal) (b : Fin 16384) (c : Fin 4096) :
    val_main_v14 (F := Ideal) x W (ix2 b c) = negDist x W b c := by
  have e1 : ∀ k : Fin 128, idx_main_v1 (idx_main_v2 (idx_main_v6 (ix2 b c))) k = ix2 b k := fun k =>
    funext fun a => Fin.ext (by match a with | ⟨0, _⟩ => rfl | ⟨1, _⟩ => rfl)
  have e4 : ∀ k : Fin 128, idx_main_v4 (idx_main_v5 (idx_main_v7 (ix2 b c))) k = ix2 c k := fun k =>
    funext fun a => Fin.ext (by match a with | ⟨0, _⟩ => rfl | ⟨1, _⟩ => rfl)
  have el : ∀ k : Fin 128, lidx_main_v9 (ix2 b c) k = ix2 b k := fun k =>
    funext fun a => Fin.ext (by match a with | ⟨0, _⟩ => rfl | ⟨1, _⟩ => rfl)
  have er : ∀ k : Fin 128, ridx_main_v9 (ix2 b c) k = ix2 c k := fun k =>
    funext fun a => Fin.ext (by match a with | ⟨0, _⟩ => rfl | ⟨1, _⟩ => rfl)
  rw [val_main_v14_apply, val_main_v13_apply, val_main_cst_2_apply, val_main_v12_apply, val_main_v8_apply,
    val_main_v6_apply, val_main_v2_apply, val_main_v1_apply, val_main_v7_apply, val_main_v5_apply, val_main_v4_apply,
    val_main_v11_apply, val_main_v10_apply, val_main_cst_1_apply, val_main_v9_apply]
  simp only [val_main_v0_apply, val_main_v3_apply, val_main_cst_apply, val_main_cst_0_apply, e1, e4, el, er,
    Ideal.mulf_def, Ideal.addf_def, Ideal.subf_def, Ideal.ofBits_def, Ideal.ofBits_zero_f32, zero_add]
  rfl

/-- The reduced index b with the centre coordinate put back is (b, c). -/
theorem lift_row (h : S16384x4096.Reduces [1] S16384) (b : Fin 16384) (k : Fin (S16384x4096.size 1)) :
    h.lift (ix1 b) k = ix2 b (⟨k.val, k.isLt⟩ : Fin 4096) := by
  funext a; apply Fin.ext
  fin_cases a <;> rfl

/-- The row maximum of real scaled distances, taken from −∞ over the 4096 centres, is a real number. -/
theorem rowMax_real (x : SX.Idx → EReal) (W : SW.Idx → EReal) (b : Fin 16384)
    (hd : ∀ c : Fin 4096, ∃ r : ℝ, val_main_v14 (F := Ideal) x W (ix2 b c) = r) :
    ∃ mr : ℝ, val_main_v17 (F := Ideal) x W (ix1 b) = mr := by
  have h : S16384x4096.Reduces [1] S16384 := by decide
  haveI : Nonempty (Fin (S16384x4096.size 1)) := ⟨⟨0, by decide⟩⟩
  rw [val_main_v17_apply, val_main_v16_apply, val_main_cst_4_apply]
  unfold val_main_v15
  have hfold := Host.reduce_eq_fold_single (FloatOps.maximumf (F := Ideal) (φ := .f32)) (val_main_v14 (F := Ideal) x W)
    (val_main_cst_3 (F := Ideal)) reducesTo_S16384x4096_S16384_d1 h h_S_ (ix1 b)
  rw [hfold]
  show ∃ mr : ℝ, max (Ideal.ofBits .f32 0xFF800000#32)
    ((Finset.univ : Finset (Fin (S16384x4096.size 1))).fold max (Ideal.ofBits .f32 0xFF800000#32)
      (val_main_v14 (F := Ideal) x W ∘ h.lift (ix1 b))) = mr
  rw [negInf_val, max_bot_left]
  refine fold_max_real _ fun k => ?_
  rw [Function.comp_apply, lift_row h b k]
  exact hd _

/-- The reference's result at (b, c) from its scaled distances and its row maximum. -/
theorem out_apply (x : SX.Idx → EReal) (W : SW.Idx → EReal) (b : Fin 16384) (c : Fin 4096) :
    val_main_v25 (F := Ideal) x W (ix2 b c)
      = Ideal.div (Ideal.exp (val_main_v14 (F := Ideal) x W (ix2 b c) - val_main_v17 (F := Ideal) x W (ix1 b)))
          (∑ c' : Fin 4096, Ideal.exp (val_main_v14 (F := Ideal) x W (ix2 b c') - val_main_v17 (F := Ideal) x W (ix1 b))) := by
  have e19 : ∀ c' : Fin 4096, idx_main_v18 (idx_main_v19 (ix2 b c')) = ix1 b := fun c' =>
    funext fun a => Fin.ext (by match a with | ⟨0, _⟩ => rfl)
  have e22 : ∀ k : Fin 4096, idx_main_v22 (idx_main_v23 (idx_main_v24 (ix2 b c))) k = ix2 b k := fun k =>
    funext fun a => Fin.ext (by match a with | ⟨0, _⟩ => rfl | ⟨1, _⟩ => rfl)
  rw [val_main_v25_apply, val_main_v24_apply, val_main_v23_apply, val_main_v22_apply, val_main_cst_5_apply]
  simp only [val_main_v21_apply, val_main_v20_apply, val_main_v19_apply, val_main_v18_apply, e19, e22,
    Ideal.hostDivf_def, Ideal.hostUnary_exp_def, Ideal.subf_def, Ideal.ofBits_def, Ideal.ofBits_zero_f32, zero_add]

/-- On arrays of real entries the reference's result array is G of them. -/
theorem ref_eq_G (x : SX.Idx → EReal) (W : SW.Idx → EReal) (hx : ∀ i, ∃ r : ℝ, x i = r) (hW : ∀ i, ∃ r : ℝ, W i = r) :
    val_main_v25 (F := Ideal) x W = G x W := by
  obtain ⟨xr, rfl⟩ : ∃ xr : SX.Idx → ℝ, x = fun i => ((xr i : ℝ) : EReal) :=
    ⟨fun i => (hx i).choose, funext fun i => (hx i).choose_spec⟩
  obtain ⟨wr, rfl⟩ : ∃ wr : SW.Idx → ℝ, W = fun i => ((wr i : ℝ) : EReal) :=
    ⟨fun i => (hW i).choose, funext fun i => (hW i).choose_spec⟩
  funext i
  obtain ⟨b, c, rfl⟩ : ∃ (b : Fin 16384) (c : Fin 4096), i = ix2 b c := ⟨i 0, i 1, eq_ix2 i⟩
  have hz : ∀ c' : Fin 4096, val_main_v14 (F := Ideal) (fun i => ((xr i : ℝ) : EReal)) (fun i => ((wr i : ℝ) : EReal)) (ix2 b c')
      = ((logitR xr wr b c' + rowTermR xr b : ℝ) : EReal) := fun c' => by
    rw [scaledDist_apply, negDist_coe, negDistR_eq]
  obtain ⟨mr, hm⟩ := rowMax_real _ _ b (fun c' => ⟨_, hz c'⟩)
  rw [out_apply, G_ix2, softmaxAt_coe, hm]
  simp only [hz, ← EReal.coe_sub, add_sub_assoc]
  exact softmax_shift (fun c' => logitR xr wr b c') (rowTermR xr b - mr) c

end Cert.RbfSoftmax.Ref

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.Finite.lean ====
/-
  The precondition makes every entry of both argument arrays a real number.

  The precondition is one bit: for each of the two arrays, "the absolute value of every entry is below +∞", the two
  conjoined. Where it is 1 both conjuncts are 1, and each says its array has no infinite entry; on the extended reals
  an entry that is not ±∞ is a real number.
-/
import proofs.«168091_j60361470378557_2_alg».proof.Pre_finite_inputs
import proofs.«168091_j60361470378557_2_alg».proof.Proof.LibFiniteEntries
import Idealize.ShloMosaic.Lib.Affine
import Idealize.ShloMosaic.Lib.ValueIdx

noncomputable section

namespace Cert.RbfSoftmax.Finite

open Idealize.ShloMosaic Idealize.ShloMosaic.ValueIdx Cert.Pre_finite_inputs

/-- Where the finiteness test of the two arrays answers 1, every entry of x and every entry of W is a real number. -/
theorem real_args [hF : Cert.Pre_finite_inputs.Facts] (x : FVec Ideal S16384x128 .f32) (W : FVec Ideal S4096x128 .f32)
    (h : Cert.Pre_finite_inputs.fn (F := Ideal) x W = fun _ => 1#1) :
    (∀ i, ∃ r : ℝ, x i = r) ∧ (∀ i, ∃ r : ℝ, W i = r) := by
  have h0 := congrFun h ix0
  dsimp only [Cert.Pre_finite_inputs.fn] at h0
  obtain ⟨ha, hb⟩ := IntOp.andi_eq_one.mp h0
  exact ⟨fun i => Cert.LibFiniteEntries.real_entries_of_all_lt_inf x _ _ _ _ ha i,
    fun i => Cert.LibFiniteEntries.real_entries_of_all_lt_inf W _ _ _ _ hb i⟩

end Cert.RbfSoftmax.Finite

end
-- ==== Proof.lean ====
/-
  A radial-basis layer: softmax over 4096 centres of −γ‖x_b − w_c‖², for 16384 points of dimension 128.

  THE TWO PROGRAMS. The reference expands the squared distance, ‖x_b‖² + ‖w_c‖² − 2⟨x_b, w_c⟩, multiplies by the f32
  pattern of −0.05, subtracts each row's maximum, exponentiates and normalises the row. The kernel drops the term
  ‖x_b‖² (it is the same for every centre of a row), folds the factor 2γ into the points before the product (it
  multiplies x by the f32 pattern of 0.1), adds −γ‖w_c‖² to the product, and normalises exp of that WITHOUT subtracting
  a maximum. It does this 512 rows at a time over a grid of 32 points, each point against the whole codebook.

  WHY THEY AGREE on the extended reals, for finite inputs. Both results are softmaxes along a row, and a softmax does
  not change when one real number is added to every entry of the row. Row b of the reference's exponent is the
  kernel's logit plus the real number −γ‖x_b‖² − M_b (M_b the row's maximum); so both are exp (logit) / ∑ exp (logit).
  Two facts carry this: the pattern of 0.1 denotes exactly twice what the pattern of 0.05 denotes (same significand,
  exponent one higher), so 2 · γ · ⟨x, w⟩ = ⟨0.1 · x, w⟩ with no rounding; and every quantity is a real number — a
  finite input makes every inner product, norm, logit and row maximum real, the sum of 4096 exponentials is a positive
  real, and the common factor exp (−γ‖x_b‖² − M_b) cancels. The precondition is used: with an infinite entry the shift
  could be infinite.

  THE PARTS. The law of the shift and the reading of the patterns: LibSoftmaxShift, Spec. The reference's result at an
  index and its equality with the result function G: Reference. The kernel body's value at an index: Payload (over the
  transposed-right-operand product, LibTransposedRhsMatmul, and the keepdims readings, LibKeepdims). The arrays the
  region is launched on: HostPrefix. From the 32 written-back blocks to the whole result array: KernelValue. The
  precondition as "every entry is real": Finite (over LibFiniteEntries). The frames are the generated ones; the
  idealization rewrote nothing, so the kernel and its idealized form are one text.
-/
import proofs.«168091_j60361470378557_2_alg».proof.Defs
import proofs.«168091_j60361470378557_2_alg».proof.Proof.Gen.Kernel
import proofs.«168091_j60361470378557_2_alg».proof.Proof.Gen.Kernel.Skeleton
import proofs.«168091_j60361470378557_2_alg».proof.Proof.Gen.Kernel.Launch
import proofs.«168091_j60361470378557_2_alg».proof.Proof.Gen.Kernel.Points
import proofs.«168091_j60361470378557_2_alg».proof.Proof.Gen.Kernel.Frame
import proofs.«168091_j60361470378557_2_alg».proof.Proof.Gen.KernelIdeal
import proofs.«168091_j60361470378557_2_alg».proof.Proof.Gen.KernelIdeal.Skeleton
import proofs.«168091_j60361470378557_2_alg».proof.Proof.Gen.KernelIdeal.Launch
import proofs.«168091_j60361470378557_2_alg».proof.Proof.Gen.KernelIdeal.Points
import proofs.«168091_j60361470378557_2_alg».proof.Proof.Gen.KernelIdeal.Frame
import proofs.«168091_j60361470378557_2_alg».proof.Proof.Gen.ReferenceIdeal
import proofs.«168091_j60361470378557_2_alg».proof.Proof.Gen.Pre_finite_inputs
import proofs.«168091_j60361470378557_2_alg».proof.Proof.Gen.KernelIdeal.Value
import proofs.«168091_j60361470378557_2_alg».proof.Proof.Gen.ReferenceIdeal.Run
import proofs.«168091_j60361470378557_2_alg».proof.Proof.Gen.ReferenceIdeal.Read
import proofs.«168091_j60361470378557_2_alg».proof.Proof.KernelValue
import proofs.«168091_j60361470378557_2_alg».proof.Proof.Reference
import proofs.«168091_j60361470378557_2_alg».proof.Proof.Finite
import Idealize.ShloMosaic.Adequacy
import Idealize.ShloMosaic.Init

noncomputable section

namespace Cert.Proof

open Idealize.ShloMosaic Idealize.SL.Sem

/-- The kernel as printed runs to completion and leaves its two arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a list of array operations: it runs to completion and writes neither argument. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- On finite inputs both programs end with the result function G of the two arguments: the kernel by its 32 blocks,
    the reference because its row-wise shift −γ‖x_b‖² − M_b is a real number that a softmax does not see. -/
theorem algebraic : Cert.algebraic_KernelIdeal_ReferenceIdeal := by
  intro m ρ m' ρ' hpre hagree
  refine ⟨fun c => Cert.RbfSoftmax.G (Cert.RbfSoftmax.Prefix.argX m c) (Cert.RbfSoftmax.Prefix.argW m c),
    Cert.RbfSoftmax.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2]
  obtain ⟨hx, hW⟩ := Cert.RbfSoftmax.Finite.real_args _ _ (hpre c)
  exact Cert.RbfSoftmax.Ref.ref_eq_G _ _ hx hW

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
